-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S4096 .f32) (main_arg2 : FVec F S4096 .f32) (main_arg3 : FVec F S4096 .f32) (main_arg4 : FVec F S4096x4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x4096 : Shape := ⟨2, ![8192, 4096]⟩
abbrev S4096 : Shape := ⟨1, ![4096]⟩
abbrev S4096x4096 : Shape := ⟨2, ![4096, 4096]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩

abbrev nBuf : Space → Nat
  | .hbm => 12
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S4096x4096, .bf16⟩
  | .hbm, ⟨11, _⟩ => ⟨S8192x4096, .f32⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S4096x4096, .bf16⟩
  | .local _ .vmem, ⟨6, _⟩ => ⟨S1x4096, .f32⟩
  | .local _ .vmem, ⟨7, _⟩ => ⟨S64x4096, .f32⟩
  | .local _ .vmem, ⟨8, _⟩ => ⟨S64x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4096_S1x4096 : S4096.ShapeCasts S1x4096
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  reduces_S64x4096_S64 : S64x4096.Reduces [1] S64
  shapeCasts_S64_S64x1 : S64.ShapeCasts S64x1
  broadcasts_S64x1_S64x4096 : S64x1.Broadcasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  transposes_S4096x4096_p1_0_S4096x4096 : S4096x4096.Transposes [1, 0] S4096x4096
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S8192x4096.size a
  hwx0_0 : ∀ i : grid0.Coords, EltTy.bits .f32 = 32 ∨ (Rect.block (s := S8192x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x4096.size a ≤ S4096x4096.size a
  hwx0_4 : ∀ i : grid0.Coords, EltTy.bits .bf16 = 32 ∨ (Rect.block (s := S4096x4096) S4096x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x4096.size a ≤ S8192x4096.size a
  hwx0_6 : ∀ i : grid0.Coords, EltTy.bits .f32 = 32 ∨ (Rect.block (s := S8192x4096) S64x4096.size (cc0_transform_6 i) (hinb0_6 i)).WholeWords (EltTy.packing .f32)

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S4096x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, stated once over the extended reals.

  From activations `z` (8192 rows of 4096 features), three feature vectors `u1 u2 u3`, a weight matrix `w`
  (4096 outputs by 4096 features) and a bias, the result at row `b` and output `o` is

      (∑ k, (u1 k · z b k · ((∑ k', u2 k' · z b k') · (∑ k', u3 k' · z b k'))) · w o k) + bias o.

  Every row is scaled by the product of two of its own inner products before the linear layer. Both programs
  compute exactly this expression, with the products associated in exactly this way, so no law of the extended
  reals beyond `0 + x = x` is needed to join them, and in particular none that would ask the inputs to be finite.
-/
import Idealize.ShloMosaic.PureOps.Ideal
import Idealize.ShloMosaic.Lib.ValueIdx

noncomputable section

open scoped BigOperators

namespace Cert.ScaledLinear

open Idealize.ShloMosaic Idealize.ShloMosaic.ValueIdx

/-- The inner product of a feature vector `u` with row `b` of the activations. -/
def rowDot (u : (⟨1, ![4096]⟩ : Shape).Idx → EReal) (z : (⟨2, ![8192, 4096]⟩ : Shape).Idx → EReal) (b : Fin 8192) : EReal :=
  ∑ k : Fin 4096, u (ix1 k) * z (ix2 b k)

/-- Row `b` of the scaled activations at feature `k`: the entry `u1 k · z b k` times the row's scale, the product
    of the row's inner products with `u2` and with `u3`. -/
def scaled (z : (⟨2, ![8192, 4096]⟩ : Shape).Idx → EReal) (u1 u2 u3 : (⟨1, ![4096]⟩ : Shape).Idx → EReal)
    (b : Fin 8192) (k : Fin 4096) : EReal :=
  (u1 (ix1 k) * z (ix2 b k)) * (rowDot u2 z b * rowDot u3 z b)

/-- The result array: the scaled activations through the linear layer `x ↦ x · wᵀ + bias`. -/
def result (z : (⟨2, ![8192, 4096]⟩ : Shape).Idx → EReal) (u1 u2 u3 : (⟨1, ![4096]⟩ : Shape).Idx → EReal)
    (w : (⟨2, ![4096, 4096]⟩ : Shape).Idx → EReal) (bias : (⟨1, ![4096]⟩ : Shape).Idx → EReal) :
    (⟨2, ![8192, 4096]⟩ : Shape).Idx → EReal :=
  fun i => (∑ k : Fin 4096, scaled z u1 u2 u3 (i 0) k * w (ix2 (i 1) k)) + bias (ix1 (i 1))

end Cert.ScaledLinear

end
-- ==== Proof.LibKeepdims.lean ====
/-
  Column vectors kept as two-dimensional arrays, read at an index.

  A row sum taken with `keepdims` leaves a vector of length `a` as an `[a, 1]` array; the kernel then re-lays that
  column (a transpose to `[1, a]`, a broadcast along the rows or along the columns). Each lemma below reads ONE such
  operation at an index written by its coordinates (`ix1`, `ix2`), so that a chain of them walks from an element of the
  broadcast array back to the element of the vector it copies. The rest read a sum along the second axis of a matrix
  as a sum over the column coordinate: the index the reduction inserts at row `p` and column `k` is `(p, k)`
  (`lift_row`), so the vector unit's reduction, whose accumulator word is the sum's neutral element and adds nothing,
  is at row `p` the sum of the row's entries (`rowSum_apply`; `rowSum_zero_f32_apply` for the f32 zero word).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Keepdims

open Idealize.ShloMosaic Idealize.ShloMosaic.ValueIdx

variable {α : Type}

/-- A vector of length `a` cast to a column `[a, 1]` reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the second axis of a matrix inserts: row `p`, column `k`. -/
theorem lift_row {a b : ℕ} (h : (⟨2, ![a, b]⟩ : Shape).Reduces [1] ⟨1, ![a]⟩) (p : Fin a) (k : Fin b) :
    h.lift (ix1 p) k = ix2 p k :=
  funext fun d => Fin.ext (by match d with | ⟨0, _⟩ => rfl | ⟨1, _⟩ => rfl)

/-- At the exact values, the vector unit's sum along the second axis of a matrix, started from the zero word, is at row
    `p` the sum over the columns `k` of the entries `(p, k)`. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The same for the f32 zero word with the accumulator's neutrality stated as the plain equation of words a printed
    body carries (`0 = 0`: the neutral element of an f32 sum IS the zero word, by computation). -/
theorem rowSum_zero_f32_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) :=
  rowSum_apply v _ h hφ hacc p

end Cert.Keepdims

end
-- ==== Proof.Payload.lean ====
/-
  The kernel body's arithmetic, read at one entry.

  On a block of 64 rows the body multiplies the rows by `u1`, sums `u2 · row` and `u3 · row` along the
  features (each sum kept as a column), multiplies the two columns, spreads the product along the features,
  multiplies, and contracts the result with the transposed weights into a zero accumulator before adding the
  bias row. At row `r` of the block and output `o` that is the specification's expression over the block's
  rows; the rounding to sixteen bits in front of the contraction is the identity on exact values.
-/
import proofs.«138630_j13975823581771_1_alg».proof.Proof.Gen.KernelIdeal.Skeleton
import proofs.«138630_j13975823581771_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ScaledLinear.Body

open Cert.KernelIdeal Cert.KernelIdeal.Gen Idealize.ShloMosaic Idealize.ShloMosaic.ValueIdx

/-- A feature vector held as one row, spread over the block's 64 rows, reads its entry at the feature. -/
theorem rowVec_apply (x : Vec Ideal S1x4096 .f32) (p : Fin 64) (k : Fin 4096) :
    broadcastTo S64x4096 (shapeCast S1x4096 x shapeCasts_S1x4096_S1x4096) broadcasts_S1x4096_S64x4096 (ix2 p k)
      = x (ix2 (0 : Fin 1) k) := by
  rw [shapeCast_self]
  exact broadcastTo_1b_ab_apply x broadcasts_S1x4096_S64x4096 p k

/-- … so its product with the block is, entry by entry, the vector's entry times the block's. -/
theorem rowProd_apply (x : Vec Ideal S1x4096 .f32) (x0 : Vec Ideal S64x4096 .f32) (p : Fin 64) (k : Fin 4096) :
    mulf (F := Ideal) (φ := .f32) (broadcastTo S64x4096 (shapeCast S1x4096 x shapeCasts_S1x4096_S1x4096) broadcasts_S1x4096_S64x4096) x0 (ix2 p k)
      = x (ix2 (0 : Fin 1) k) * x0 (ix2 p k) := by
  rw [mulf_apply, rowVec_apply]

/-- A sum along the features started at zero and kept as a column reads, at row `p`, the sum of the row. -/
theorem rowSum_column_apply (v : FVec Ideal S64x4096 .f32) (hφ : FKind.Formats .f32)
    (hacc : (0x00000000#32 : BitVec 32) = 0x00000000#32) (p : Fin 64) (u : Fin 1) :
    shapeCast S64x1 (multiReduction (F := Ideal) .add [1] S64 v 0x00000000#32 reduces_S64x4096_S64 hφ hacc) shapeCasts_S64_S64x1 (ix2 p u)
      = ∑ k : Fin 4096, v (ix2 p k) := by
  rw [Cert.Keepdims.shapeCast_a_a1_apply, Cert.Keepdims.rowSum_zero_f32_apply]

/-- The product of two columns spread along the features reads, at row `p`, the product of their entries there. -/
theorem scale_apply (a b : FVec Ideal S64x1 .f32) (p : Fin 64) (k : Fin 4096) :
    broadcastTo S64x4096 (mulf (F := Ideal) a b) broadcasts_S64x1_S64x4096 (ix2 p k) = a (ix2 p (0 : Fin 1)) * b (ix2 p (0 : Fin 1)) := by
  rw [Cert.Keepdims.broadcastTo_a1_ab_apply, mulf_apply]

/-- The transposed weights at (feature, output) are the weights at (output, feature). -/
theorem weights_apply (x4 : Vec Ideal S4096x4096 .bf16) (k o : Fin 4096) :
    transpose S4096x4096 [1, 0] (shapeCast S4096x4096 x4 shapeCasts_S4096x4096_S4096x4096) transposes_S4096x4096_p1_0_S4096x4096 (ix2 k o)
      = x4 (ix2 o k) := by
  rw [shapeCast_self]
  exact transpose_ix2_apply x4 transposes_S4096x4096_p1_0_S4096x4096 k o

theorem lhs_0 (j : S64x4096.Idx) (q : dot_S64x4096_S4096x4096_S64x4096_1_0_0_1_n_n.contr.Idx) : (dot_S64x4096_S4096x4096_S64x4096_1_0_0_1_n_n.lhsIdx j q 0).val = (j 0).val := by
  unfold DotDims.lhsIdx
  rw [dif_neg (show ¬(0 : Fin S64x4096.rank) ∈ dot_S64x4096_S4096x4096_S64x4096_1_0_0_1_n_n.lhsBatch by decide), dif_pos (show (0 : Fin S64x4096.rank) ∈ dot_S64x4096_S4096x4096_S64x4096_1_0_0_1_n_n.lhsNonContracting by decide)]
  rfl
theorem lhs_1 (j : S64x4096.Idx) (q : dot_S64x4096_S4096x4096_S64x4096_1_0_0_1_n_n.contr.Idx) : (dot_S64x4096_S4096x4096_S64x4096_1_0_0_1_n_n.lhsIdx j q 1).val = (q ⟨0, by decide⟩).val :=
  dot_S64x4096_S4096x4096_S64x4096_1_0_0_1_n_n.lhsIdx_val_of_single rfl j q
theorem rhs_0 (j : S64x4096.Idx) (q : dot_S64x4096_S4096x4096_S64x4096_1_0_0_1_n_n.contr.Idx) : (dot_S64x4096_S4096x4096_S64x4096_1_0_0_1_n_n.rhsIdx j q 0).val = (q ⟨0, by decide⟩).val :=
  dot_S64x4096_S4096x4096_S64x4096_1_0_0_1_n_n.rhsIdx_val_of_single rfl j q
theorem rhs_1 (j : S64x4096.Idx) (q : dot_S64x4096_S4096x4096_S64x4096_1_0_0_1_n_n.contr.Idx) : (dot_S64x4096_S4096x4096_S64x4096_1_0_0_1_n_n.rhsIdx j q 1).val = (j 1).val := by
  unfold DotDims.rhsIdx
  rw [dif_neg (show ¬(1 : Fin S4096x4096.rank) ∈ dot_S64x4096_S4096x4096_S64x4096_1_0_0_1_n_n.rhsBatch by decide), dif_pos (show (1 : Fin S4096x4096.rank) ∈ dot_S64x4096_S4096x4096_S64x4096_1_0_0_1_n_n.rhsNonContracting by decide)]
  rfl

/-- The contraction into a zero accumulator reads, at (row, output), the sum over the features of the products. -/
theorem contract_apply (l : FVec Ideal S64x4096 .bf16) (w : FVec Ideal S4096x4096 .bf16) (p : Fin 64) (o : Fin 4096) :
    matmul (F := Ideal) dot_S64x4096_S4096x4096_S64x4096_1_0_0_1_n_n none l w (constant (F := Ideal) S64x4096 .f32 0x00000000#32) (ix2 p o) = ∑ k : Fin 4096, l (ix2 p k) * w (ix2 k o) := by
  simp only [matmul]
  rw [Ideal.matmul_constant_zero_apply, ← Equiv.sum_comp (contrEquiv1 dot_S64x4096_S4096x4096_S64x4096_1_0_0_1_n_n 4096 rfl rfl).symm]
  refine Finset.sum_congr rfl fun k _ => ?_
  have hk := contrEquiv1_symm_val dot_S64x4096_S4096x4096_S64x4096_1_0_0_1_n_n 4096 rfl rfl k
  have el : dot_S64x4096_S4096x4096_S64x4096_1_0_0_1_n_n.lhsIdx (ix2 p o) ((contrEquiv1 dot_S64x4096_S4096x4096_S64x4096_1_0_0_1_n_n 4096 rfl rfl).symm k) = ix2 p k := funext fun a => Fin.ext (by
    match a with
    | ⟨0, _⟩ => exact lhs_0 _ _
    | ⟨1, _⟩ => exact (lhs_1 _ _).trans hk)
  have er : dot_S64x4096_S4096x4096_S64x4096_1_0_0_1_n_n.rhsIdx (ix2 p o) ((contrEquiv1 dot_S64x4096_S4096x4096_S64x4096_1_0_0_1_n_n 4096 rfl rfl).symm k) = ix2 k o := funext fun a => Fin.ext (by
    match a with
    | ⟨0, _⟩ => exact (rhs_0 _ _).trans hk
    | ⟨1, _⟩ => exact rhs_1 _ _)
  rw [el, er]

theorem payload_apply (x0 : Vec Ideal S64x4096 .f32) (x1 x2 x3 : Vec Ideal S1x4096 .f32) (x4 : Vec Ideal S4096x4096 .bf16)
    (x5 : Vec Ideal S1x4096 .f32) (r : Fin 64) (o : Fin 4096) :
    k0_pay1 (F := Ideal) x0 x1 x2 x3 x4 x5 (ix2 r o)
      = (∑ k : Fin 4096, ((x1 (ix2 (0 : Fin 1) k) * x0 (ix2 r k))
            * ((∑ k' : Fin 4096, x2 (ix2 (0 : Fin 1) k') * x0 (ix2 r k')) * (∑ k' : Fin 4096, x3 (ix2 (0 : Fin 1) k') * x0 (ix2 r k'))))
          * x4 (ix2 o k)) + x5 (ix2 (0 : Fin 1) o) := by
  unfold k0_pay1
  dsimp only
  rw [addf_apply, rowVec_apply, contract_apply]
  refine congrArg (· + x5 (ix2 (0 : Fin 1) o)) (Finset.sum_congr rfl fun k _ => ?_)
  rw [weights_apply, truncf_apply, mulf_apply, rowProd_apply, scale_apply, rowSum_column_apply, rowSum_column_apply]
  simp only [rowProd_apply]

end Cert.ScaledLinear.Body

end
-- ==== Proof.Staged.lean ====
/-
  What the region finds in the arrays the host prepared.

  Before the region the host re-lays each of the four vectors `u1`, `u2`, `u3` and the bias as one row
  `[1, 4096]`, and rounds the weights to sixteen bits. A one-row copy of a vector holds, at feature `k` of its
  row, the vector's entry `k`; the rounding is the identity on exact values. So, read at an index, each
  staged array is the argument it was made from.
-/
import proofs.«138630_j13975823581771_1_alg».proof.Proof.Gen.KernelIdeal.Frame
import Idealize.ShloMosaic.Lib.StableHlo.Run
import Idealize.ShloMosaic.Lib.ValueIdx
import Idealize.ShloMosaic.Lib.ValueLayout

noncomputable section

namespace Cert.ScaledLinear.Staged

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

/-- The one-row copy of `u1`. -/
theorem V_u1 (c : Dev nD) : (V m c main_v0 : S1x4096.Idx → EReal)
    = shapeCast S1x4096 (m ((c : Thread nD τ).loc main_arg1)) shapeCasts_S4096_S1x4096 := by
  dsimp only [Gen.V, Gen.hostOps0]; after_results; rfl
/-- The one-row copy of `u2`. -/
theorem V_u2 (c : Dev nD) : (V m c main_v1 : S1x4096.Idx → EReal)
    = shapeCast S1x4096 (m ((c : Thread nD τ).loc main_arg2)) shapeCasts_S4096_S1x4096 := by
  dsimp only [Gen.V, Gen.hostOps0]; after_results; rfl
/-- The one-row copy of `u3`. -/
theorem V_u3 (c : Dev nD) : (V m c main_v2 : S1x4096.Idx → EReal)
    = shapeCast S1x4096 (m ((c : Thread nD τ).loc main_arg3)) shapeCasts_S4096_S1x4096 := by
  dsimp only [Gen.V, Gen.hostOps0]; after_results; rfl
/-- The one-row copy of the bias. -/
theorem V_bias (c : Dev nD) : (V m c main_v3 : S1x4096.Idx → EReal)
    = shapeCast S1x4096 (m ((c : Thread nD τ).loc main_arg5)) shapeCasts_S4096_S1x4096 := by
  dsimp only [Gen.V, Gen.hostOps0]; after_results; rfl
/-- The weights rounded to sixteen bits. -/
theorem V_w (c : Dev nD) : (V m c main_v4 : S4096x4096.Idx → EReal)
    = truncf (F := Ideal) .bf16 (m ((c : Thread nD τ).loc main_arg4)) bitsLt_bf16_f32 := by
  dsimp only [Gen.V, Gen.hostOps0]; after_results

/-- Read at feature `k` of its one row, each copy is the vector's entry `k`; the rounded weights are the weights. -/
theorem V_u1_apply (c : Dev nD) (u : Fin 1) (k : Fin 4096) :
    V m c main_v0 (ix2 u k) = m ((c : Thread nD τ).loc main_arg1) (ix1 k) := by
  rw [V_u1]; exact shapeCast_a_1a_apply _ shapeCasts_S4096_S1x4096 u k
theorem V_u2_apply (c : Dev nD) (u : Fin 1) (k : Fin 4096) :
    V m c main_v1 (ix2 u k) = m ((c : Thread nD τ).loc main_arg2) (ix1 k) := by
  rw [V_u2]; exact shapeCast_a_1a_apply _ shapeCasts_S4096_S1x4096 u k
theorem V_u3_apply (c : Dev nD) (u : Fin 1) (k : Fin 4096) :
    V m c main_v2 (ix2 u k) = m ((c : Thread nD τ).loc main_arg3) (ix1 k) := by
  rw [V_u3]; exact shapeCast_a_1a_apply _ shapeCasts_S4096_S1x4096 u k
theorem V_bias_apply (c : Dev nD) (u : Fin 1) (k : Fin 4096) :
    V m c main_v3 (ix2 u k) = m ((c : Thread nD τ).loc main_arg5) (ix1 k) := by
  rw [V_bias]; exact shapeCast_a_1a_apply _ shapeCasts_S4096_S1x4096 u k
theorem V_w_apply (c : Dev nD) (i : S4096x4096.Idx) :
    V m c main_v4 i = m ((c : Thread nD τ).loc main_arg4) i := by
  rw [V_w]; rfl
theorem V_z_apply (c : Dev nD) (i : S8192x4096.Idx) :
    V m c main_arg0 i = m ((c : Thread nD τ).loc main_arg0) i := by
  rw [V_main_arg0]

end Cert.ScaledLinear.Staged

end
-- ==== Proof.Blocks.lean ====
/-
  From blocks to the whole array.

  Grid point `t` of 128 works on rows `64 t … 64 t + 63`: it is handed those rows of `z`, the whole of each
  staged vector and of the weights, and writes back those rows of the result. The body's arithmetic at a
  block's entry depends only on that entry's row of `z`, so what point `t` writes back is the specification
  restricted to its rows; the 128 blocks of 64 rows tile the 8192 rows, hence the array ends holding the
  specification everywhere.
-/
import proofs.«138630_j13975823581771_1_alg».proof.Proof.Gen.KernelIdeal.Value
import proofs.«138630_j13975823581771_1_alg».proof.Proof.Spec
import proofs.«138630_j13975823581771_1_alg».proof.Proof.Payload
import proofs.«138630_j13975823581771_1_alg».proof.Proof.Staged

noncomputable section

open scoped BigOperators

namespace Cert.ScaledLinear.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The specification at the launch contents of core `c`'s argument arrays. -/
abbrev out (c : Dev nD) : S8192x4096.Idx → EReal :=
  Cert.ScaledLinear.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The printed index maps over the grid: the activations and the result move one block of rows per point, every
    other operand stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block of the activations is row `64 t + p` of the array. -/
theorem z_block (c : Dev nD) (t : Fin cfg0.N) (p : Fin 64) (k : Fin 4096) (row : Fin 8192) (hrow : row.val = t.val * 64 + p.val) :
    iblk m c 0 t (ix2 p k) = m ((c : Thread nD τ).loc main_arg0) (ix2 row k) := by
  show V m c main_arg0 (((cfg0.win 0).blk t).view.emb (ix2 p k)) = _
  rw [Staged.V_z_apply]
  refine congrArg _ (funext fun a => Fin.ext ?_)
  obtain ⟨e0, e1, -⟩ := idx_facts t
  match a with
  | ⟨0, _⟩ => show win0_0.index t (0 : Fin 2) * 64 + 1 * p.val = row.val; omega
  | ⟨1, _⟩ => show win0_0.index t (1 : Fin 2) * 4096 + 1 * k.val = k.val; omega

/-- Every point's block of a staged vector is the whole row: its entry at feature `k` is the vector's entry `k`. -/
theorem u1_block (c : Dev nD) (t : Fin cfg0.N) (k : Fin 4096) :
    iblk m c 1 t (ix2 (0 : Fin 1) k) = m ((c : Thread nD τ).loc main_arg1) (ix1 k) := by
  show V m c main_v0 (((cfg0.win 1).blk t).view.emb (ix2 (0 : Fin 1) k)) = _
  obtain ⟨-, -, e0, e1, -⟩ := idx_facts t
  have e : ((cfg0.win 1).blk t).view.emb (ix2 (0 : Fin 1) k) = ix2 (0 : Fin 1) k := funext fun a => Fin.ext (by
    match a with
    | ⟨0, _⟩ => show win0_1.index t (0 : Fin 2) * 1 + 1 * 0 = 0; omega
    | ⟨1, _⟩ => show win0_1.index t (1 : Fin 2) * 4096 + 1 * k.val = k.val; omega)
  rw [e, Staged.V_u1_apply]
theorem u2_block (c : Dev nD) (t : Fin cfg0.N) (k : Fin 4096) :
    iblk m c 2 t (ix2 (0 : Fin 1) k) = m ((c : Thread nD τ).loc main_arg2) (ix1 k) := by
  show V m c main_v1 (((cfg0.win 2).blk t).view.emb (ix2 (0 : Fin 1) k)) = _
  obtain ⟨-, -, -, -, e0, e1, -⟩ := idx_facts t
  have e : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 4096 + 1 * k.val = k.val; omega)
  rw [e, Staged.V_u2_apply]
theorem u3_block (c : Dev nD) (t : Fin cfg0.N) (k : Fin 4096) :
    iblk m c 3 t (ix2 (0 : Fin 1) k) = m ((c : Thread nD τ).loc main_arg3) (ix1 k) := by
  show V m c main_v2 (((cfg0.win 3).blk t).view.emb (ix2 (0 : Fin 1) k)) = _
  obtain ⟨-, -, -, -, -, -, e0, e1, -⟩ := idx_facts t
  have e : ((cfg0.win 3).blk t).view.emb (ix2 (0 : Fin 1) k) = ix2 (0 : Fin 1) k := funext fun a => Fin.ext (by
    match a with
    | ⟨0, _⟩ => show win0_3.index t (0 : Fin 2) * 1 + 1 * 0 = 0; omega
    | ⟨1, _⟩ => show win0_3.index t (1 : Fin 2) * 4096 + 1 * k.val = k.val; omega)
  rw [e, Staged.V_u3_apply]
/-- The bias likewise, read at an output `col` equal to `o`. -/
theorem bias_block (c : Dev nD) (t : Fin cfg0.N) (o col : Fin 4096) (hcol : col.val = o.val) :
    iblk m c 5 t (ix2 (0 : Fin 1) o) = m ((c : Thread nD τ).loc main_arg5) (ix1 col) := by
  show V m c main_v3 (((cfg0.win 5).blk t).view.emb (ix2 (0 : Fin 1) o)) = _
  obtain ⟨-, -, -, -, -, -, -, -, -, -, e0, e1, -⟩ := idx_facts t
  have e : ((cfg0.win 5).blk t).view.emb (ix2 (0 : Fin 1) o) = ix2 (0 : Fin 1) col := funext fun a => Fin.ext (by
    match a with
    | ⟨0, _⟩ => show win0_5.index t (0 : Fin 2) * 1 + 1 * 0 = 0; omega
    | ⟨1, _⟩ => show win0_5.index t (1 : Fin 2) * 4096 + 1 * o.val = col.val; omega)
  rw [e, Staged.V_bias_apply]
/-- Every point's block of the weights is the whole matrix. -/
theorem w_block (c : Dev nD) (t : Fin cfg0.N) (o k col : Fin 4096) (hcol : col.val = o.val) :
    iblk m c 4 t (ix2 o k) = m ((c : Thread nD τ).loc main_arg4) (ix2 col k) := by
  show V m c main_v4 (((cfg0.win 4).blk t).view.emb (ix2 o k)) = _
  rw [Staged.V_w_apply]
  refine congrArg _ (funext fun a => Fin.ext ?_)
  obtain ⟨-, -, -, -, -, -, -, -, e0, e1, -⟩ := idx_facts t
  match a with
  | ⟨0, _⟩ => show win0_4.index t (0 : Fin 2) * 4096 + 1 * o.val = col.val; omega
  | ⟨1, _⟩ => show win0_4.index t (1 : Fin 2) * 4096 + 1 * k.val = k.val; omega

/-- WHAT POINT `t` WRITES BACK is its block of the specification. -/
theorem flushed_eq (c : Dev nD) (t : Fin cfg0.N) :
    (dats m 0 c).flushed 6 t = ((cfg0.win 6).blk t).view.read (Elt Ideal) (out m c) := by
  rw [Cert.KernelIdeal.Value.flushed6]
  unfold out0_6
  rw [View.canon_unit_zero zero_offsets]
  simp only [View.ld_unit_zero (S := S64x4096) zero_offsets, View.ld_unit_zero (S := S1x4096) zero_offsets,
    View.ld_unit_zero (S := S4096x4096) zero_offsets]
  funext j
  obtain ⟨p, q, rfl⟩ : ∃ (p : Fin 64) (q : Fin 4096), j = ix2 p q := ⟨j 0, j 1, eq_ix2 j⟩
  show k0_pay1 (iblk m c 0 t) (iblk m c 1 t) (iblk m c 2 t) (iblk m c 3 t) (iblk m c 4 t) (iblk m c 5 t) (ix2 p q)
    = out m c (((cfg0.win 6).blk t).view.emb (ix2 p q))
  refine (Cert.ScaledLinear.Body.payload_apply (iblk m c 0 t) (iblk m c 1 t) (iblk m c 2 t) (iblk m c 3 t) (iblk m c 4 t)
    (iblk m c 5 t) p q).trans ?_
  obtain ⟨-, -, -, -, -, -, -, -, -, -, -, -, e0, e1⟩ := idx_facts t
  have hrow : ((((cfg0.win 6).blk t).view.emb (ix2 p q)) 0).val = t.val * 64 + p.val := by
    show win0_6.index t (0 : Fin 2) * 64 + 1 * p.val = _; omega
  have hcol : ((((cfg0.win 6).blk t).view.emb (ix2 p q)) 1).val = q.val := by
    show win0_6.index t (1 : Fin 2) * 4096 + 1 * q.val = _; omega
  simp only [z_block m c t p _ _ hrow, u1_block m c t, u2_block m c t, u3_block m c t, w_block m c t q _ _ hcol,
    bias_block m c t q _ hcol]
  rfl

/-- An index of the result array is in point `t`'s block iff each coordinate is in the block's range on its axis. -/
theorem mem_blk (t : Fin cfg0.N) (i : S8192x4096.Idx) :
    i ∈ ((cfg0.win 6).blk t).view.set ↔ ∀ a : Fin 2, win0_6.index t a * S64x4096.size a ≤ (i a).val
      ∧ (i a).val < win0_6.index t a * S64x4096.size a + S64x4096.size a := by
  show i ∈ ((View.whole main_v5).slice (win0_6.rect t)).set ↔ _
  rw [View.set_slice_whole, Rect.mem_set_unit]
  exact Iff.rfl

/-- The blocks tile the array: row `r` lies in the block of point `r / 64`, and every block spans all 4096 outputs. -/
theorem cover (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  have hN : cfg0.N = 128 := N_0
  have hlt : (i 0).val / 64 < cfg0.N := by rw [hN]; omega
  refine ⟨⟨(i 0).val / 64, hlt⟩, flush0_6 _, ?_⟩
  rw [mem_blk]
  obtain ⟨-, -, -, -, -, -, -, -, -, -, -, -, e0, e1⟩ := idx_facts ⟨(i 0).val / 64, hlt⟩
  have e0' : win0_6.index ⟨(i 0).val / 64, hlt⟩ (0 : Fin 2) = (i 0).val / 64 := e0
  intro a
  match a with
  | ⟨0, _⟩ =>
    show win0_6.index ⟨(i 0).val / 64, hlt⟩ (0 : Fin 2) * 64 ≤ (i 0).val
      ∧ (i 0).val < win0_6.index ⟨(i 0).val / 64, hlt⟩ (0 : Fin 2) * 64 + 64
    omega
  | ⟨1, _⟩ =>
    show win0_6.index ⟨(i 0).val / 64, hlt⟩ (1 : Fin 2) * 4096 ≤ (i 1).val
      ∧ (i 1).val < win0_6.index ⟨(i 0).val / 64, hlt⟩ (1 : Fin 2) * 4096 + 4096
    omega

/-- THE ARRAY after the run is the specification of the launch contents. -/
theorem final (c : Dev nD) : (dats m 0 c).arrAt 6 cfg0.N = out m c :=
  (dats m 0 c).arrAt_eq_of_cover 6 (out m c) (fun t _ => flushed_eq m c t) cover

/-- The kernel's run: every weakly fair execution ends with the result array at the specification and the
    argument arrays as launched. -/
theorem run : θ_run defs (onTc (τ := τ) (main (F := Ideal))) ⟨m, fun _ => 0, ρ⟩ fun r => ∀ c : Dev nD,
      r.2.mem ((c : Thread nD τ).loc main_v5) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.ScaledLinear.Blocks

end
-- ==== Proof.RefIsSpec.lean ====
/-
  The reference's result is the specification.

  The reference multiplies `z` by the broadcast of `u1`, takes the row sums of `u2 · z` and of `u3 · z`
  (each a host reduction started at zero), multiplies the two sums, broadcasts the product along the rows,
  multiplies, contracts with the transposed weights and adds the broadcast bias. Read at an index (b, o),
  stage by stage, that is the specification's expression; the only arithmetic step is `0 + x = x` for the
  two reductions' initial value.
-/
import proofs.«138630_j13975823581771_1_alg».proof.Proof.Gen.ReferenceIdeal.Read
import proofs.«138630_j13975823581771_1_alg».proof.Proof.Spec

noncomputable section

open scoped BigOperators

namespace Cert.ScaledLinear.Ref

open Cert.ReferenceIdeal Cert.ReferenceIdeal.Read Idealize.ShloMosaic Idealize.ShloMosaic.ValueIdx

theorem val_eq_result (x0 : (⟨S8192x4096, .f32⟩ : BufTy).Contents (Elt Ideal)) (x1 x2 x3 : (⟨S4096, .f32⟩ : BufTy).Contents (Elt Ideal))
    (x4 : (⟨S4096x4096, .f32⟩ : BufTy).Contents (Elt Ideal)) (x5 : (⟨S4096, .f32⟩ : BufTy).Contents (Elt Ideal)) :
    val_main_v19 (F := Ideal) x0 x1 x2 x3 x4 x5 = Cert.ScaledLinear.result x0 x1 x2 x3 x4 x5 := by
  funext i
  rw [val_main_v19_apply, val_main_v16_apply, val_main_v18_apply, val_main_v17_apply]
  simp only [val_main_v14_apply, val_main_v2_apply, val_main_v1_apply, val_main_v0_apply, val_main_v13_apply,
    val_main_v12_apply, val_main_v11_apply, val_main_v6_apply, val_main_v10_apply, val_main_v5_apply,
    val_main_v4_apply, val_main_v3_apply, val_main_v9_apply, val_main_v8_apply, val_main_v7_apply,
    val_main_cst_apply, val_main_cst_0_apply, val_main_v15_apply]
  -- every composed index map is the evident index: feature `k` of a vector, (row, feature) of `z`, (output, feature) of `w`
  have hA1 : ∀ k : Fin 4096, x1 (idx_main_v0 (idx_main_v1 (lidx_main_v16 i k))) = x1 (ix1 k) := fun k =>
    congrArg x1 (funext fun a => by match a with | ⟨0, _⟩ => rfl)
  have hZ1 : ∀ k : Fin 4096, x0 (lidx_main_v16 i k) = x0 (ix2 (i 0) k) := fun k =>
    congrArg x0 (funext fun a => by match a with | ⟨0, _⟩ => rfl | ⟨1, _⟩ => rfl)
  have hA2 : ∀ x k : Fin 4096, x2 (idx_main_v3 (idx_main_v4 (idx_main_v6 (idx_main_v12 (idx_main_v13 (lidx_main_v16 i x))) k))) = x2 (ix1 k) :=
    fun x k => congrArg x2 (funext fun a => by match a with | ⟨0, _⟩ => rfl)
  have hZ2 : ∀ x k : Fin 4096, x0 (idx_main_v6 (idx_main_v12 (idx_main_v13 (lidx_main_v16 i x))) k) = x0 (ix2 (i 0) k) :=
    fun x k => congrArg x0 (funext fun a => by match a with | ⟨0, _⟩ => rfl | ⟨1, _⟩ => rfl)
  have hA3 : ∀ x k : Fin 4096, x3 (idx_main_v7 (idx_main_v8 (idx_main_v10 (idx_main_v12 (idx_main_v13 (lidx_main_v16 i x))) k))) = x3 (ix1 k) :=
    fun x k => congrArg x3 (funext fun a => by match a with | ⟨0, _⟩ => rfl)
  have hZ3 : ∀ x k : Fin 4096, x0 (idx_main_v10 (idx_main_v12 (idx_main_v13 (lidx_main_v16 i x))) k) = x0 (ix2 (i 0) k) :=
    fun x k => congrArg x0 (funext fun a => by match a with | ⟨0, _⟩ => rfl | ⟨1, _⟩ => rfl)
  have hW : ∀ k : Fin 4096, x4 (idx_main_v15 (ridx_main_v16 i k)) = x4 (ix2 (i 1) k) := fun k =>
    congrArg x4 (funext fun a => by match a with | ⟨0, _⟩ => rfl | ⟨1, _⟩ => rfl)
  have hB : x5 (idx_main_v17 (idx_main_v18 i)) = x5 (ix1 (i 1)) :=
    congrArg x5 (funext fun a => by match a with | ⟨0, _⟩ => rfl)
  unfold Cert.ScaledLinear.result Cert.ScaledLinear.scaled Cert.ScaledLinear.rowDot
  simp only [hA1, hZ1, hA2, hZ2, hA3, hZ3, hW, hB, Ideal.mulf_def, Ideal.addf_def, Ideal.ofBits_def,
    Ideal.ofBits_zero_f32, zero_add]

end Cert.ScaledLinear.Ref

end
-- ==== Proof.lean ====
/-
  A linear layer applied to row-scaled activations: the kernel and its reference compute one function.

  Both programs take activations `z` (8192 rows of 4096 features), feature vectors `u1`, `u2`, `u3`, weights `w`
  (4096 outputs by 4096 features) and a bias, and return, at row `b` and output `o`,

      (∑ k, (u1 k · z b k · ((∑ k', u2 k' · z b k') · (∑ k', u3 k' · z b k'))) · w o k) + bias o

  (Proof/Spec.lean). The reference computes it on whole arrays (Proof/RefIsSpec.lean reads its operations at an
  index). The kernel computes it 64 rows at a time on a grid of 128 points, from one-row copies of the vectors
  and sixteen-bit weights that the host prepares first (Proof/Staged.lean); its body at an entry is the same
  expression over the block's rows (Proof/Payload.lean), each point writes back its rows of the specification, and the
  blocks tile the array (Proof/Blocks.lean). At the exact values the change of format in front of the contraction is
  the identity, a contraction into a zero accumulator is the plain sum, and a sum started at zero is the sum; the two
  sides then agree term by term, with the same association of every product, so the inputs' finiteness is never used.
  The idealization rewrote nothing, so there is nothing to preserve beyond the program's own text.
-/
import proofs.«138630_j13975823581771_1_alg».proof.Defs
import proofs.«138630_j13975823581771_1_alg».proof.Proof.Gen.Kernel
import proofs.«138630_j13975823581771_1_alg».proof.Proof.Gen.Kernel.Skeleton
import proofs.«138630_j13975823581771_1_alg».proof.Proof.Gen.Kernel.Launch
import proofs.«138630_j13975823581771_1_alg».proof.Proof.Gen.Kernel.Points
import proofs.«138630_j13975823581771_1_alg».proof.Proof.Gen.Kernel.Frame
import proofs.«138630_j13975823581771_1_alg».proof.Proof.Gen.KernelIdeal
import proofs.«138630_j13975823581771_1_alg».proof.Proof.Gen.KernelIdeal.Skeleton
import proofs.«138630_j13975823581771_1_alg».proof.Proof.Gen.KernelIdeal.Launch
import proofs.«138630_j13975823581771_1_alg».proof.Proof.Gen.KernelIdeal.Points
import proofs.«138630_j13975823581771_1_alg».proof.Proof.Gen.KernelIdeal.Frame
import proofs.«138630_j13975823581771_1_alg».proof.Proof.Gen.ReferenceIdeal
import proofs.«138630_j13975823581771_1_alg».proof.Proof.Gen.Pre_finite_inputs
import proofs.«138630_j13975823581771_1_alg».proof.Proof.Gen.KernelIdeal.Value
import proofs.«138630_j13975823581771_1_alg».proof.Proof.Gen.ReferenceIdeal.Run
import proofs.«138630_j13975823581771_1_alg».proof.Proof.Gen.ReferenceIdeal.Read
import proofs.«138630_j13975823581771_1_alg».proof.Proof.Blocks
import proofs.«138630_j13975823581771_1_alg».proof.Proof.RefIsSpec
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its exact reading. -/
theorem preserves : Cert.preserves_Kernel_KernelIdeal := trivial

/-- From memories that agree on the arguments, the kernel's result array and the reference's both end at the
    specification of those arguments. -/
theorem algebraic : Cert.algebraic_KernelIdeal_ReferenceIdeal := by
  intro m ρ m' ρ' _ hagree
  refine ⟨fun c => Cert.ScaledLinear.Blocks.out m c, Cert.ScaledLinear.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v19_eq _ _ _ _ _ _).trans (Cert.ScaledLinear.Ref.val_eq_result _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
